-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x2048 : Shape := ⟨3, ![4, 8192, 2048]⟩
abbrev S50x2048 : Shape := ⟨2, ![50, 2048]⟩
abbrev S50 : Shape := ⟨1, ![50]⟩
abbrev S_ : Shape := ⟨0, ![]⟩

class Facts : Prop where
  bcast_S_S4x8192x2048 : S_.BroadcastsInDim S4x8192x2048 (![] : Fin 0 → Fin S4x8192x2048.rank)
  reducesTo_S4x8192x2048_S_d0_1_2 : S4x8192x2048.ReducesTo [0, 1, 2] S_
  h_S_ : 0 < S_.numel
  bcast_S_S50x2048 : S_.BroadcastsInDim S50x2048 (![] : Fin 0 → Fin S50x2048.rank)
  reducesTo_S50x2048_S_d0_1 : S50x2048.ReducesTo [0, 1] S_
  bcast_S_S50 : S_.BroadcastsInDim S50 (![] : Fin 0 → Fin S50.rank)
  reducesTo_S50_S_d0 : S50.ReducesTo [0] S_

variable [Facts]

def fn {F : FTy → Type} [FloatOps F] (main_arg0 : FVec F S4x8192x2048 .f32) (main_arg1 : FVec F S50x2048 .f32) (main_arg2 : FVec F S50 .f32) : IVec S_ 1 :=
  let main_v0 : FVec F S4x8192x2048 .f32 := Host.absf main_arg0
  let main_cst : FVec F S_ .f32 := constant S_ .f32 0x7F800000#32
  let main_v1 : FVec F S4x8192x2048 .f32 := broadcastInDim S4x8192x2048 ![] bcast_S_S4x8192x2048 main_cst
  let main_v2 : IVec S4x8192x2048 1 := cmpf .olt main_v0 main_v1
  let main_c : IVec S_ 1 := constantI S_ 1 1#1
  let main_v3 : IVec S_ 1 := (fun x v => Host.reduce IntOp.andi x v reducesTo_S4x8192x2048_S_d0_1_2 h_S_) main_v2 main_c
  let main_v4 : FVec F S50x2048 .f32 := Host.absf main_arg1
  let main_cst_0 : FVec F S_ .f32 := constant S_ .f32 0x7F800000#32
  let main_v5 : FVec F S50x2048 .f32 := broadcastInDim S50x2048 ![] bcast_S_S50x2048 main_cst_0
  let main_v6 : IVec S50x2048 1 := cmpf .olt main_v4 main_v5
  let main_c_1 : IVec S_ 1 := constantI S_ 1 1#1
  let main_v7 : IVec S_ 1 := (fun x v => Host.reduce IntOp.andi x v reducesTo_S50x2048_S_d0_1 h_S_) main_v6 main_c_1
  let main_v8 : IVec S_ 1 := andi main_v3 main_v7
  let main_v9 : FVec F S50 .f32 := Host.absf main_arg2
  let main_cst_2 : FVec F S_ .f32 := constant S_ .f32 0x7F800000#32
  let main_v10 : FVec F S50 .f32 := broadcastInDim S50 ![] bcast_S_S50 main_cst_2
  let main_v11 : IVec S50 1 := cmpf .olt main_v9 main_v10
  let main_c_3 : IVec S_ 1 := constantI S_ 1 1#1
  let main_v12 : IVec S_ 1 := (fun x v => Host.reduce IntOp.andi x v reducesTo_S50_S_d0 h_S_) main_v11 main_c_3
  let main_v13 : IVec S_ 1 := andi main_v8 main_v12
  main_v13
-- ==== Kernel.lean ====
abbrev S4x8192x2048 : Shape := ⟨3, ![4, 8192, 2048]⟩
abbrev S50x2048 : Shape := ⟨2, ![50, 2048]⟩
abbrev S50 : Shape := ⟨1, ![50]⟩
abbrev S1x50 : Shape := ⟨2, ![1, 50]⟩
abbrev S50x4x8192 : Shape := ⟨3, ![50, 4, 8192]⟩
abbrev S4x256x2048 : Shape := ⟨3, ![4, 256, 2048]⟩
abbrev S50x4x256 : Shape := ⟨3, ![50, 4, 256]⟩
abbrev S1024x2048 : Shape := ⟨2, ![1024, 2048]⟩
abbrev S50x1024 : Shape := ⟨2, ![50, 1024]⟩
abbrev S50x1 : Shape := ⟨2, ![50, 1]⟩
abbrev S4x8192x50 : Shape := ⟨3, ![4, 8192, 50]⟩

abbrev nBuf : Space → Nat
  | .hbm => 6
  | .vmem => 6
  | .smem => 0
  | _ => 0

abbrev bufTy : (tb : Table) → Fin (tcTables nBuf tb) → BufTy
  | .hbm, ⟨0, _⟩ => ⟨S4x8192x2048, .f32⟩
  | .hbm, ⟨1, _⟩ => ⟨S50x2048, .f32⟩
  | .hbm, ⟨2, _⟩ => ⟨S50, .f32⟩
  | .hbm, ⟨3, _⟩ => ⟨S1x50, .f32⟩
  | .hbm, ⟨4, _⟩ => ⟨S50x4x8192, .f32⟩
  | .hbm, ⟨5, _⟩ => ⟨S4x8192x50, .f32⟩
  | .local _ .vmem, ⟨0, _⟩ => ⟨S4x256x2048, .f32⟩
  | .local _ .vmem, ⟨1, _⟩ => ⟨S4x256x2048, .f32⟩
  | .local _ .vmem, ⟨2, _⟩ => ⟨S50x2048, .f32⟩
  | .local _ .vmem, ⟨3, _⟩ => ⟨S1x50, .f32⟩
  | .local _ .vmem, ⟨4, _⟩ => ⟨S50x4x256, .f32⟩
  | .local _ .vmem, ⟨5, _⟩ => ⟨S50x4x256, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S4x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S50x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x50 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S50x4x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S50_S1x50 : S50.ShapeCasts S1x50
  inb_S4x256x2048_S4x256x2048_0_0_0 : ∀ a, (![0, 0, 0] : Fin 3 → Nat) a + S4x256x2048.size a ≤ S4x256x2048.size a
  h_S4x256x2048 : 0 < S4x256x2048.numel
  shapeCasts_S4x256x2048_S1024x2048 : S4x256x2048.ShapeCasts S1024x2048
  inb_S50x2048_S50x2048_0_0 : ∀ a, (![0, 0] : Fin 2 → Nat) a + S50x2048.size a ≤ S50x2048.size a
  h_S50x2048 : 0 < S50x2048.numel
  inb_S1x50_S1x50_0_0 : ∀ a, (![0, 0] : Fin 2 → Nat) a + S1x50.size a ≤ S1x50.size a
  h_S1x50 : 0 < S1x50.numel
  shapeCasts_S1x50_S1x50 : S1x50.ShapeCasts S1x50
  transposes_S1x50_p1_0_S50x1 : S1x50.Transposes [1, 0] S50x1
  broadcasts_S50x1_S50x1024 : S50x1.Broadcasts S50x1024
  shapeCasts_S50x1024_S50x4x256 : S50x1024.ShapeCasts S50x4x256
  inb_S50x4x256_S50x4x256_0_0_0 : ∀ a, (![0, 0, 0] : Fin 3 → Nat) a + S50x4x256.size a ≤ S50x4x256.size a
  h_S50x4x256 : 0 < S50x4x256.numel
  transposes_S50x4x8192_S4x8192x50_1_2_0 : S50x4x8192.Transposes [1, 2, 0] S4x8192x50
  dot_S50x2048_S1024x2048_S50x1024_1_1_0_0_n_n_wf : DotDims.WF S50x2048 S1024x2048 S50x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x2048.size a ≤ S4x8192x2048.size a
  hwx0_0 : ∀ i : grid0.Coords, EltTy.bits .f32 = 32 ∨ (Rect.block (s := S4x8192x2048) S4x256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S50x2048.size a ≤ S50x2048.size a
  hwx0_1 : ∀ i : grid0.Coords, EltTy.bits .f32 = 32 ∨ (Rect.block (s := S50x2048) S50x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x50.size a ≤ S1x50.size a
  hwx0_2 : ∀ i : grid0.Coords, EltTy.bits .f32 = 32 ∨ (Rect.block (s := S1x50) S1x50.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S50x4x256.size a ≤ S50x4x8192.size a
  hwx0_3 : ∀ i : grid0.Coords, EltTy.bits .f32 = 32 ∨ (Rect.block (s := S50x4x8192) S50x4x256.size (cc0_transform_3 i) (hinb0_3 i)).WholeWords (EltTy.packing .f32)

variable [Facts₀]

def dot_S50x2048_S1024x2048_S50x1024_1_1_0_0_n_n : DotDims S50x2048 S1024x2048 S50x1024 where
  lhsContracting := [1]
  rhsContracting := [1]
  lhsNonContracting := [0]
  rhsNonContracting := [0]
  lhsBatch := []
  rhsBatch := []
  wf := dot_S50x2048_S1024x2048_S50x1024_1_1_0_0_n_n_wf

abbrev win0_0 : Pipeline.Window sig grid0 :=
  Pipeline.Window.ofSpec (Memref.whole main_arg0) S4x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S50x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x50.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S50x4x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x8192x2048 : Shape := ⟨3, ![4, 8192, 2048]⟩
abbrev S50x2048 : Shape := ⟨2, ![50, 2048]⟩
abbrev S50 : Shape := ⟨1, ![50]⟩
abbrev S32768x2048 : Shape := ⟨2, ![32768, 2048]⟩
abbrev S2048x50 : Shape := ⟨2, ![2048, 50]⟩
abbrev S32768x50 : Shape := ⟨2, ![32768, 50]⟩
abbrev S1x50 : Shape := ⟨2, ![1, 50]⟩
abbrev S4x8192x50 : Shape := ⟨3, ![4, 8192, 50]⟩

abbrev nBuf : Space → Nat
  | .hbm => 10
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S50x2048, .f32⟩
  | .hbm, ⟨2, _⟩ => ⟨S50, .f32⟩
  | .hbm, ⟨3, _⟩ => ⟨S32768x2048, .f32⟩
  | .hbm, ⟨4, _⟩ => ⟨S2048x50, .f32⟩
  | .hbm, ⟨5, _⟩ => ⟨S32768x50, .f32⟩
  | .hbm, ⟨6, _⟩ => ⟨S1x50, .f32⟩
  | .hbm, ⟨7, _⟩ => ⟨S32768x50, .f32⟩
  | .hbm, ⟨8, _⟩ => ⟨S32768x50, .f32⟩
  | .hbm, ⟨9, _⟩ => ⟨S4x8192x50, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  shapeCasts_S4x8192x2048_S32768x2048 : S4x8192x2048.ShapeCasts S32768x2048
  transposes_S50x2048_S2048x50_1_0 : S50x2048.Transposes [1, 0] S2048x50
  bcast_S50_S1x50_1 : S50.BroadcastsInDim S1x50 (![1] : Fin 1 → Fin S1x50.rank)
  bcast_S1x50_S32768x50_0_1 : S1x50.BroadcastsInDim S32768x50 (![0, 1] : Fin 2 → Fin S32768x50.rank)
  shapeCasts_S32768x50_S4x8192x50 : S32768x50.ShapeCasts S4x8192x50
  dot_S32768x2048_S2048x50_S32768x50_1_0_0_1_n_n_wf : DotDims.WF S32768x2048 S2048x50 S32768x50 [1] [0] [0] [1] [] []

variable [Facts₀]

def dot_S32768x2048_S2048x50_S32768x50_1_0_0_1_n_n : DotDims S32768x2048 S2048x50 S32768x50 where
  lhsContracting := [1]
  rhsContracting := [0]
  lhsNonContracting := [0]
  rhsNonContracting := [1]
  lhsBatch := []
  rhsBatch := []
  wf := dot_S32768x2048_S2048x50_S32768x50_1_0_0_1_n_n_wf

class Facts : Prop extends Facts₀ where

variable [Facts]
-- ==== Proof.Logits.lean ====
/-
  The logits of a linear layer with 50 labels over 2048 features, applied at every position of a [4, 8192] grid of
  positions, on the extended reals:

      logits (b, t, l) = (∑ k : Fin 2048, W (l, k) · x (b, t, k)) + bias l.

  Two arrangements of the same numbers appear. `logits` is position-major, [4, 8192, 50]; `logitsByLabel` is label-major,
  [50, 4, 8192], entry (l, b, t) holding what `logits` holds at (b, t, l). Moving the label axis from the front to the back
  turns the second into the first (`logitsByLabel_swap`).

  The product inside the sum is written weight first. The product of the extended reals is commutative, so the sum with the
  feature first is the same number (`logits_feature_first`); no finiteness is needed for that, and nothing else about the
  extended reals is used.
-/
import Idealize.ShloMosaic.PureOps.Ideal
import Idealize.ShloMosaic.Lib.ValueIdx

noncomputable section

namespace Cert.Linear

open Idealize.ShloMosaic Idealize.ShloMosaic.ValueIdx

/-- The features: [4, 8192, 2048]. -/
abbrev Feat : Type := FVec Ideal ⟨3, ![4, 8192, 2048]⟩ .f32
/-- The weights: one row of 2048 per label, [50, 2048]. -/
abbrev Wts : Type := FVec Ideal ⟨2, ![50, 2048]⟩ .f32
/-- The bias: one number per label, [50]. -/
abbrev Bias : Type := FVec Ideal ⟨1, ![50]⟩ .f32

/-- One logit: row `l` of the weights against the features at position (b, t), plus the bias of label `l`. -/
def logit (x : Feat) (W : Wts) (bias : Bias) (b : Fin 4) (t : Fin 8192) (l : Fin 50) : EReal :=
  (∑ k : Fin 2048, W (ix2 l k) * x (ix3 b t k)) + bias (ix1 l)

/-- The logits, position-major: entry (b, t, l). -/
def logits (x : Feat) (W : Wts) (bias : Bias) : FVec Ideal ⟨3, ![4, 8192, 50]⟩ .f32 :=
  fun i => logit x W bias (i 0) (i 1) (i 2)

/-- The logits, label-major: entry (l, b, t). -/
def logitsByLabel (x : Feat) (W : Wts) (bias : Bias) : FVec Ideal ⟨3, ![50, 4, 8192]⟩ .f32 :=
  fun j => logit x W bias (j 1) (j 2) (j 0)

theorem logits_apply (x : Feat) (W : Wts) (bias : Bias) (b : Fin 4) (t : Fin 8192) (l : Fin 50) :
    logits x W bias (ix3 b t l) = logit x W bias b t l := rfl

theorem logitsByLabel_apply (x : Feat) (W : Wts) (bias : Bias) (l : Fin 50) (b : Fin 4) (t : Fin 8192) :
    logitsByLabel x W bias (ix3 l b t) = logit x W bias b t l := rfl

/-- The label-major arrangement read at (l, b, t) for the position-major entry (b, t, l). -/
theorem logitsByLabel_swap (x : Feat) (W : Wts) (bias : Bias) (i : (⟨3, ![4, 8192, 50]⟩ : Shape).Idx) :
    logitsByLabel x W bias (ix3 (i 2) (i 0) (i 1)) = logits x W bias i := rfl

/-- With the feature written first in each product the logit is the same number: the product is commutative. -/
theorem logit_feature_first (x : Feat) (W : Wts) (bias : Bias) (b : Fin 4) (t : Fin 8192) (l : Fin 50) :
    (∑ k : Fin 2048, x (ix3 b t k) * W (ix2 l k)) + bias (ix1 l) = logit x W bias b t l := by
  unfold logit
  exact congrArg (· + bias (ix1 l)) (Finset.sum_congr rfl fun k _ => mul_comm _ _)

end Cert.Linear

end
-- ==== Proof.RefLogits.lean ====
/-
  The reference computes the logits.

  The reference flattens the [4, 8192] positions to 32768 rows, multiplies the [32768, 2048] features by the transposed
  weights [2048, 50], adds the bias along every row and unflattens. Read at (b, t, l): the unflattening reads row
  b · 8192 + t, column l; the product there sums, over k, the flattened features at (b · 8192 + t, k) — the features at
  (b, t, k) — times the transposed weights at (k, l) — the weights at (l, k); the broadcast bias there is the bias at l.
  That is the logit with the feature first in each product, which is the logit.
-/
import proofs.«172611_g46248207843626_cont_8to1_c_545_16_alg».proof.Proof.Gen.ReferenceIdeal.Read
import proofs.«172611_g46248207843626_cont_8to1_c_545_16_alg».proof.Proof.Logits

noncomputable section

namespace Cert.Linear.Reference

open Idealize.ShloMosaic Idealize.ShloMosaic.ValueIdx Cert.ReferenceIdeal Cert.ReferenceIdeal.Read

/-- The flattened row of position (b, t): b · 8192 + t. -/
def row (i : S4x8192x50.Idx) : Fin 32768 :=
  ⟨(i 0).val * 8192 + (i 1).val, by
    have h0 : (i 0).val < 4 := (i 0).isLt
    have h1 : (i 1).val < 8192 := (i 1).isLt
    omega⟩

/-- Row b · 8192 + t, column l of the flattened result for the entry (b, t, l). -/
theorem unflatten_idx (i : S4x8192x50.Idx) : idx_main_v6 i = ix2 (row i) (i 2) :=
  funext fun a => Fin.ext (by
    have h0 : (i 0).val < 4 := (i 0).isLt
    have h1 : (i 1).val < 8192 := (i 1).isLt
    have h2 : (i 2).val < 50 := (i 2).isLt
    match a with
    | ⟨0, _⟩ => show (((i 0).val * 8192 + (i 1).val) * 50 + (i 2).val) / 50 = (i 0).val * 8192 + (i 1).val; omega
    | ⟨1, _⟩ => show (((i 0).val * 8192 + (i 1).val) * 50 + (i 2).val) % 50 = (i 2).val; omega)

/-- The flattened features at (b · 8192 + t, k) are the features at (b, t, k). -/
theorem flatten_idx (i : S4x8192x50.Idx) (k : Fin 2048) :
    idx_main_v0 (lidx_main_v2 (idx_main_v6 i) k) = ix3 (i 0) (i 1) k := by
  rw [unflatten_idx]
  exact funext fun a => Fin.ext (by
    have h0 : (i 0).val < 4 := (i 0).isLt
    have h1 : (i 1).val < 8192 := (i 1).isLt
    have hk : k.val < 2048 := k.isLt
    match a with
    | ⟨0, _⟩ => show (((i 0).val * 8192 + (i 1).val) * 2048 + k.val) / 16777216 = (i 0).val; omega
    | ⟨1, _⟩ => show (((i 0).val * 8192 + (i 1).val) * 2048 + k.val) / 2048 % 8192 = (i 1).val; omega
    | ⟨2, _⟩ => show (((i 0).val * 8192 + (i 1).val) * 2048 + k.val) % 2048 = k.val; omega)

/-- The transposed weights at (k, l) are the weights at (l, k). -/
theorem weights_idx (i : S4x8192x50.Idx) (k : Fin 2048) :
    idx_main_v1 (ridx_main_v2 (idx_main_v6 i) k) = ix2 (i 2) k := by
  rw [unflatten_idx]
  exact funext fun a => Fin.ext (by match a with | ⟨0, _⟩ => rfl | ⟨1, _⟩ => rfl)

/-- The bias broadcast along the rows, at column l, is the bias at l. -/
theorem bias_idx (i : S4x8192x50.Idx) :
    idx_main_v3 (idx_main_v4 (idx_main_v6 i)) = ix1 (i 2) := by
  rw [unflatten_idx]
  exact funext fun a => Fin.ext (by match a with | ⟨0, _⟩ => rfl)

/-- The reference's result, as a function of the argument arrays, is the logits. -/
theorem result_eq (x : Feat) (W : Wts) (bias : Bias) :
    val_main_v6 (F := Ideal) x W bias = logits x W bias := by
  funext i
  rw [val_main_v6_apply, val_main_v5_apply, val_main_v2_apply, val_main_v4_apply, val_main_v3_apply]
  simp only [val_main_v0_apply, val_main_v1_apply, flatten_idx, weights_idx, bias_idx, Ideal.addf_def]
  exact logit_feature_first x W bias (i 0) (i 1) (i 2)

end Cert.Linear.Reference

end
-- ==== Proof.LibRhsTDot.lean ====
/-
  A matrix against the transpose of another, read at an entry, on the extended reals.

  For dimension numbers that contract the SECOND axis of both operands (an M×K matrix against an N×K matrix, no batch
  axis — the product l · rᵀ), the contraction index has a single coordinate, and entry (a, b) of the product is the sum
  over k : Fin K of left (a, k) · right (b, k): row a of the left operand against row b of the right one. A
  `tpu.matmul` of that form into the zero accumulator is that sum, the zero word added on the left changing nothing.

  The statements take any dimension record `D` together with a proof that it is the record of that form; for a printed
  record that proof is `rfl`.
-/
import Idealize.ShloMosaic.PureOps.Ideal.Laws
import Idealize.ShloMosaic.Lib.ValueIdx

noncomputable section

namespace Idealize.ShloMosaic.RhsTDot

open Idealize.ShloMosaic Idealize.ShloMosaic.ValueIdx

variable {M K N : Nat}

/-- The left operand is read on its row axis at the entry's row. -/
theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The right operand is read on its row axis at the entry's column. -/
theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The contraction of such a product, re-indexed by the one contracted coordinate. -/
theorem sum_eq (D : DotDims ⟨2, ![M, K]⟩ ⟨2, ![N, K]⟩ ⟨2, ![M, N]⟩) (hD : D = DotDims.transposedRhs M K N)
    (l : (⟨2, ![M, K]⟩ : Shape).Idx → EReal) (r : (⟨2, ![N, K]⟩ : Shape).Idx → EReal) (j : (⟨2, ![M, N]⟩ : Shape).Idx) :
    ∑ q : D.contr.Idx, l (D.lhsIdx j q) * r (D.rhsIdx j q) = ∑ k : Fin K, l (ix2 (j 0) k) * r (ix2 (j 1) k) := by
  subst hD
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k) = ix2 (j 0) k :=
    funext fun a => Fin.ext (by
      match a with
      | ⟨0, _⟩ => exact lhs_row _ _
      | ⟨1, _⟩ => exact ((DotDims.transposedRhs M K N).lhsIdx_val_of_single rfl _ _).trans hk)
  have er : (DotDims.transposedRhs M K N).rhsIdx j ((contrEquiv1 (DotDims.transposedRhs M K N) K rfl rfl).symm k) = ix2 (j 1) k :=
    funext fun a => Fin.ext (by
      match a with
      | ⟨0, _⟩ => exact rhs_row _ _
      | ⟨1, _⟩ => exact ((DotDims.transposedRhs M K N).rhsIdx_val_of_single rfl _ _).trans hk)
  exact congrArg₂ (fun x y => l x * r y) el er

/-- A `tpu.matmul` of such a product into the zero accumulator at an entry. -/
theorem matmul_zero_apply {φ₁ φ₂ : FTy} (D : DotDims ⟨2, ![M, K]⟩ ⟨2, ![N, K]⟩ ⟨2, ![M, N]⟩) (hD : D = DotDims.transposedRhs M K N)
    (prec : Option ContractPrecision) (l : FVec Ideal ⟨2, ![M, K]⟩ φ₁) (r : FVec Ideal ⟨2, ![N, K]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 (j 1) k) := by
  simp only [matmul]
  rw [Ideal.matmul_constant_zero_apply]
  exact sum_eq D hD l r j

/-- The same at an entry given by its coordinates: row `a` of the left operand against row `b` of the right one. -/
theorem matmul_zero_ix2 {φ₁ φ₂ : FTy} (D : DotDims ⟨2, ![M, K]⟩ ⟨2, ![N, K]⟩ ⟨2, ![M, N]⟩) (hD : D = DotDims.transposedRhs M K N)
    (prec : Option ContractPrecision) (l : FVec Ideal ⟨2, ![M, K]⟩ φ₁) (r : FVec Ideal ⟨2, ![N, K]⟩ φ₂)
    (a : Fin M) (b : Fin N) :
    matmul D prec l r (constant (F := Ideal) ⟨2, ![M, N]⟩ .f32 0x00000000#32) (ix2 a b)
      = ∑ k : Fin K, l (ix2 a k) * r (ix2 b k) :=
  matmul_zero_apply D hD prec l r (ix2 a b)

end Idealize.ShloMosaic.RhsTDot

end
-- ==== Proof.BodyLogits.lean ====
/-
  What the body computes from the blocks it loads, read at an entry.

  At one step the body holds a block of features [4, 256, 2048] (all four batch rows, 256 consecutive positions), all the
  weights [50, 2048] and the bias as a row [1, 50]. It flattens the block's positions to 1024 rows, position (b, s) going to
  row b · 256 + s; multiplies the weights by the transpose of that, so entry (l, c) of the [50, 1024] product is row l of the
  weights against flattened row c, summed over the 2048 features into a zero accumulator; turns the bias row into a column
  [50, 1] and repeats it along the 1024 columns; adds; and unflattens the 1024 columns back to [4, 256].

  So entry (l, b, s) of the stored block is (∑ k, W (l, k) · x (b, s, k)) + bias (0, l).
-/
import proofs.«172611_g46248207843626_cont_8to1_c_545_16_alg».proof.Proof.Gen.KernelIdeal.Skeleton
import proofs.«172611_g46248207843626_cont_8to1_c_545_16_alg».proof.Proof.LibRhsTDot
import Idealize.ShloMosaic.Lib.Pipeline.Value
import Idealize.ShloMosaic.Lib.ValueIdx
import Idealize.ShloMosaic.PureOps.Ideal.Laws

noncomputable section

namespace Cert.Linear.Body

open Idealize.ShloMosaic Idealize.ShloMosaic.ValueIdx Cert.KernelIdeal Cert.KernelIdeal.Gen

/-- The flattened column of position (b, s) inside a block: b · 256 + s. -/
def col (b : Fin 4) (s : Fin 256) : Fin 1024 := ⟨b.val * 256 + s.val, by have := b.isLt; have := s.isLt; omega⟩

/-- Unflattening the 1024 columns: entry (l, b, s) is entry (l, b · 256 + s). -/
theorem unflatten_apply (v : FVec Ideal S50x1024 .f32) (l : Fin 50) (b : Fin 4) (s : Fin 256) :
    shapeCast S50x4x256 v shapeCasts_S50x1024_S50x4x256 (ix3 l b s) = v (ix2 l (col b s)) :=
  shapeCast_apply v shapeCasts_S50x1024_S50x4x256 (ix3 l b s) (ix2 l (col b s)) (by
    rw [Shape.rowMajor_val_two, Shape.rowMajor_val_three]
    show l.val * 1024 + (b.val * 256 + s.val) = (l.val * 4 + b.val) * 256 + s.val
    omega)

/-- Flattening the block's positions: row b · 256 + s, feature k is the block's (b, s, k). -/
theorem flatten_apply (x0 : Vec Ideal S4x256x2048 .f32) (b : Fin 4) (s : Fin 256) (k : Fin 2048) :
    shapeCast S1024x2048 x0 shapeCasts_S4x256x2048_S1024x2048 (ix2 (col b s) k) = x0 (ix3 b s k) :=
  shapeCast_apply x0 shapeCasts_S4x256x2048_S1024x2048 (ix2 (col b s) k) (ix3 b s k) (by
    rw [Shape.rowMajor_val_two, Shape.rowMajor_val_three]
    show (b.val * 256 + s.val) * 2048 + k.val = (b.val * 256 + s.val) * 2048 + k.val
    rfl)

/-- The bias row as a column repeated along the columns: entry (l, c) is the row's (0, l). -/
theorem bias_column_apply (x2 : Vec Ideal S1x50 .f32) (l : Fin 50) (c : Fin 1024) :
    broadcastTo S50x1024 (transpose S50x1 [1, 0] (shapeCast S1x50 x2 shapeCasts_S1x50_S1x50) transposes_S1x50_p1_0_S50x1)
      broadcasts_S50x1_S50x1024 (ix2 l c) = x2 (ix2 0 l) := by
  rw [shapeCast_self]
  refine (broadcastTo_apply _ broadcasts_S50x1_S50x1024 (ix2 l c) (ix2 l (0 : Fin 1)) (fun a => ?_)).trans ?_
  · match a with
    | ⟨0, _⟩ => show l.val = if (50 : Nat) = 1 then 0 else l.val; rw [if_neg (by decide)]
    | ⟨1, _⟩ => show 0 = if (1 : Nat) = 1 then 0 else c.val; rw [if_pos rfl]
  · exact transpose_apply [1, 0] x2 transposes_S1x50_p1_0_S50x1 (ix2 l (0 : Fin 1)) (ix2 (0 : Fin 1) l) (fun b => by
      match b with
      | ⟨0, _⟩ => rfl
      | ⟨1, _⟩ => rfl)

/-- THE BODY'S BLOCK at (l, b, s): row l of the weights against the features of the block's position (b, s), plus the bias
    row's entry for label l. -/
theorem payload_apply (x0 : Vec Ideal S4x256x2048 .f32) (x1 : Vec Ideal S50x2048 .f32) (x2 : Vec Ideal S1x50 .f32)
    (l : Fin 50) (b : Fin 4) (s : Fin 256) :
    k0_pay1 (F := Ideal) x0 x1 x2 (ix3 l b s) = (∑ k : Fin 2048, x1 (ix2 l k) * x0 (ix3 b s k)) + x2 (ix2 0 l) := by
  unfold k0_pay1
  refine (unflatten_apply _ l b s).trans ?_
  refine (addf_apply _ _ _).trans ?_
  refine congrArg₂ (· + ·) ?_ (bias_column_apply x2 l (col b s))
  refine (RhsTDot.matmul_zero_ix2 dot_S50x2048_S1024x2048_S50x1024_1_1_0_0_n_n rfl none x1 _ l (col b s)).trans ?_
  exact Finset.sum_congr rfl fun k _ => congrArg (x1 (ix2 l k) * ·) (flatten_apply x0 b s k)

end Cert.Linear.Body

end
-- ==== Proof.RegionLogits.lean ====
/-
  What the region leaves in its output array: the logits, label-major.

  The region takes 32 steps. At step n it loads positions 256 · n … 256 · n + 255 of all four batch rows of the features,
  all the weights, and the bias as one row (the bias reshaped to [1, 50] before the region); it writes back the [50, 4, 256]
  block whose entry (l, b, s) is the logit of label l at position (b, 256 · n + s); and that block sits in the [50, 4, 8192]
  array at (l, b, 256 · n + s). Every entry (l, b, p) of the array is in the block of step p / 256, so after the region the
  array holds the label-major logits everywhere.
-/
import proofs.«172611_g46248207843626_cont_8to1_c_545_16_alg».proof.Proof.Gen.KernelIdeal.Frame
import proofs.«172611_g46248207843626_cont_8to1_c_545_16_alg».proof.Proof.BodyLogits
import proofs.«172611_g46248207843626_cont_8to1_c_545_16_alg».proof.Proof.Logits
import Idealize.ShloMosaic.Lib.Pipeline.Value
import Idealize.ShloMosaic.Lib.StableHlo.Run

noncomputable section

namespace Cert.Linear.Region

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

theorem zero3 : (![0, 0, 0] : Fin 3 → Nat) = fun _ => 0 := funext fun a => by fin_cases a <;> rfl
theorem zero2 : (![0, 0] : Fin 2 → Nat) = fun _ => 0 := funext fun a => by fin_cases a <;> rfl

/-- Where the blocks sit, step by step: the features' block moves along the positions with the step, the output's block
    along its last axis with the step, and the weights' and the bias row's blocks are the whole arrays. -/
theorem block_indices : ∀ t : Fin cfg0.N,
    win0_0.index t (0 : Fin 3) = 0 ∧ win0_0.index t (1 : Fin 3) = t.val ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = t.val :=
  (by decide +kernel : ∀ t : Fin grid0.N, _)

/-! ## The blocks the body loads -/

/-- The features' block at step t: its (b, s, k) is the features' (b, 256 · t + s, k). -/
theorem features_block (c : Dev nD) (t : Fin cfg0.N) (y : S4x256x2048.Idx) (i : S4x8192x2048.Idx)
    (h0 : (i 0).val = (y 0).val) (h1 : (i 1).val = t.val * 256 + (y 1).val) (h2 : (i 2).val = (y 2).val) :
    (iblk m c 0 t : Vec Ideal S4x256x2048 .f32) y = (m ((c : Thread nD τ).loc main_arg0) : S4x8192x2048.Idx → EReal) i := by
  obtain ⟨e0, e1, e2, -⟩ := block_indices t
  unfold iblk
  rw [View.read_apply]
  show V m c main_arg0 (((cfg0.win 0).blk t).view.emb y) = _
  rw [V_main_arg0]
  refine congrArg (m ((c : Thread nD τ).loc main_arg0) : S4x8192x2048.Idx → EReal) (funext fun a => Fin.ext ?_)
  match a with
  | ⟨0, _⟩ => show win0_0.index t (0 : Fin 3) * 4 + 1 * (y 0).val = (i 0).val; rw [e0, h0]; omega
  | ⟨1, _⟩ => show win0_0.index t (1 : Fin 3) * 256 + 1 * (y 1).val = (i 1).val; rw [e1, h1]; omega
  | ⟨2, _⟩ => show win0_0.index t (2 : Fin 3) * 2048 + 1 * (y 2).val = (i 2).val; rw [e2, h2]; omega

/-- The weights' block at every step is the weights. -/
theorem weights_block (c : Dev nD) (t : Fin cfg0.N) (y : S50x2048.Idx) :
    (iblk m c 1 t : Vec Ideal S50x2048 .f32) y = (m ((c : Thread nD τ).loc main_arg1) : S50x2048.Idx → EReal) y := by
  obtain ⟨-, -, -, e0, e1, -⟩ := block_indices t
  unfold iblk
  rw [View.read_apply]
  show V m c main_arg1 (((cfg0.win 1).blk t).view.emb y) = _
  rw [V_main_arg1]
  refine congrArg (m ((c : Thread nD τ).loc main_arg1) : S50x2048.Idx → EReal) (funext fun a => Fin.ext ?_)
  match a with
  | ⟨0, _⟩ => show win0_1.index t (0 : Fin 2) * 50 + 1 * (y 0).val = (y 0).val; rw [e0]; omega
  | ⟨1, _⟩ => show win0_1.index t (1 : Fin 2) * 2048 + 1 * (y 1).val = (y 1).val; rw [e1]; omega

/-- The bias row the region finds is the bias reshaped to one row. -/
theorem bias_row (c : Dev nD) :
    (V m c main_v0 : S1x50.Idx → EReal) = shapeCast S1x50 (m ((c : Thread nD τ).loc main_arg2)) shapeCasts_S50_S1x50 := by
  show StableHlo.after hostOps0 (fun b => m (c, b)) (Proc.devRef .tc main_v0) = _
  after_results
  rfl

/-- The bias row's block at every step, at (0, l), is the bias at l. -/
theorem bias_block (c : Dev nD) (t : Fin cfg0.N) (l : Fin 50) :
    (iblk m c 2 t : Vec Ideal S1x50 .f32) (ix2 0 l) = (m ((c : Thread nD τ).loc main_arg2) : S50.Idx → EReal) (ix1 l) := by
  obtain ⟨-, -, -, -, -, e0, e1, -⟩ := block_indices t
  unfold iblk
  rw [View.read_apply]
  show V m c main_v0 (((cfg0.win 2).blk t).view.emb (ix2 0 l)) = _
  rw [bias_row]
  refine shapeCast_apply _ shapeCasts_S50_S1x50 _ (ix1 l) ?_
  rw [Shape.rowMajor_val_one, Shape.rowMajor_val_two]
  show l.val = (win0_2.index t (0 : Fin 2) * 1 + 1 * 0) * 50 + (win0_2.index t (1 : Fin 2) * 50 + 1 * l.val)
  rw [e0, e1]; omega

/-! ## What a step writes back -/

/-- One entry of the block a step writes back, from any blocks that read the argument arrays as the step's blocks do: the
    label-major logit at the entry's place in the array. -/
theorem step_entry (a0 : Feat) (a1 : Wts) (a2 : Bias)
    (x0 : Vec Ideal S4x256x2048 .f32) (x1 : Vec Ideal S50x2048 .f32) (x2 : Vec Ideal S1x50 .f32) (n : Nat)
    (h0 : ∀ (y : S4x256x2048.Idx) (i : S4x8192x2048.Idx), (i 0).val = (y 0).val → (i 1).val = n * 256 + (y 1).val →
      (i 2).val = (y 2).val → x0 y = a0 i)
    (h1 : ∀ y : S50x2048.Idx, x1 y = a1 y)
    (h2 : ∀ l : Fin 50, x2 (ix2 0 l) = a2 (ix1 l))
    (y : S50x4x256.Idx) (i : S50x4x8192.Idx)
    (hi0 : (i 0).val = (y 0).val) (hi1 : (i 1).val = (y 1).val) (hi2 : (i 2).val = n * 256 + (y 2).val) :
    k0_pay1 (F := Ideal) x0 x1 x2 y = logitsByLabel a0 a1 a2 i := by
  obtain ⟨l, b, s, rfl⟩ : ∃ (l : Fin 50) (b : Fin 4) (s : Fin 256), y = ix3 l b s := ⟨y 0, y 1, y 2, eq_ix3 y⟩
  obtain ⟨l', b', p, rfl⟩ : ∃ (l' : Fin 50) (b' : Fin 4) (p : Fin 8192), i = ix3 l' b' p := ⟨i 0, i 1, i 2, eq_ix3 i⟩
  obtain rfl : l' = l := Fin.ext hi0
  obtain rfl : b' = b := Fin.ext hi1
  rw [Body.payload_apply, logitsByLabel_apply]
  unfold logit
  refine congrArg₂ (· + ·) (Finset.sum_congr rfl fun k _ => ?_) (h2 l')
  rw [h1, h0 (ix3 b' s k) (ix3 b' p k) rfl hi2 rfl]

/-- WHAT STEP t WRITES BACK is block t of the label-major logits of the argument arrays. -/
theorem flushed_eq (c : Dev nD) (t : Fin cfg0.N) :
    (dats m 0 c).flushed 3 t = ((cfg0.win 3).blk t).view.read (Elt Ideal)
      (logitsByLabel (m ((c : Thread nD τ).loc main_arg0)) (m ((c : Thread nD τ).loc main_arg1)) (m ((c : Thread nD τ).loc main_arg2))) := by
  show (cfg0.win 3).cut (grid0.coords t) ((dats m 0 c).after 3 t) = _
  rw [after0_3]
  unfold out0_3
  rw [View.canon_unit_zero zero3]
  simp only [View.ld_unit_zero (S := S4x256x2048) zero3, View.ld_unit_zero (S := S50x2048) zero2, View.ld_unit_zero (S := S1x50) zero2]
  obtain ⟨-, -, -, -, -, -, -, e0, e1, e2⟩ := block_indices t
  funext j
  refine step_entry (m ((c : Thread nD τ).loc main_arg0)) (m ((c : Thread nD τ).loc main_arg1)) (m ((c : Thread nD τ).loc main_arg2))
    (iblk m c 0 t) (iblk m c 1 t) (iblk m c 2 t) t.val
    (fun y i h0 h1 h2 => features_block m c t y i h0 h1 h2) (fun y => weights_block m c t y) (fun l => bias_block m c t l)
    ((cfg0.win 3).xinj (grid0.coords t) j) (((cfg0.win 3).blk t).view.emb j) ?_ ?_ ?_
  · show win0_3.index t (0 : Fin 3) * 50 + 1 * (j 0).val = (j 0).val; rw [e0]; omega
  · show win0_3.index t (1 : Fin 3) * 4 + 1 * (j 1).val = (j 1).val; rw [e1]; omega
  · show win0_3.index t (2 : Fin 3) * 256 + 1 * (j 2).val = t.val * 256 + (j 2).val; rw [e2]; omega

/-! ## The array after the region -/

/-- An entry of the array is in step t's block iff each coordinate is in the block's range on its axis. -/
theorem mem_block (t : Fin cfg0.N) (i : S50x4x8192.Idx) :
    i ∈ ((cfg0.win 3).blk t).view.set ↔ ∀ a : Fin 3, win0_3.index t a * S50x4x256.size a ≤ (i a).val ∧ (i a).val < win0_3.index t a * S50x4x256.size a + S50x4x256.size a := by
  show i ∈ ((View.whole main_v1).slice (win0_3.rect t)).set ↔ _
  rw [View.set_slice_whole, Rect.mem_set_unit]
  exact Iff.rfl

/-- Entry (l, b, p) is in the block of step p / 256. -/
theorem covered (i : S50x4x8192.Idx) : ∃ t : Fin cfg0.N, (cfg0.win 3).flush t = true ∧ i ∈ ((cfg0.win 3).blk t).view.set := by
  have h0 : (i 0).val < 50 := (i 0).isLt
  have h1 : (i 1).val < 4 := (i 1).isLt
  have h2 : (i 2).val < 8192 := (i 2).isLt
  have hN : cfg0.N = 32 := N_0
  refine ⟨⟨(i 2).val / 256, by rw [hN]; omega⟩, flush0_3 _, ?_⟩
  obtain ⟨-, -, -, -, -, -, -, e0, e1, e2⟩ := block_indices ⟨(i 2).val / 256, by rw [hN]; omega⟩
  rw [mem_block]
  intro a
  match a with
  | ⟨0, _⟩ => show win0_3.index _ (0 : Fin 3) * 50 ≤ (i 0).val ∧ (i 0).val < win0_3.index _ (0 : Fin 3) * 50 + 50; rw [e0]; omega
  | ⟨1, _⟩ => show win0_3.index _ (1 : Fin 3) * 4 ≤ (i 1).val ∧ (i 1).val < win0_3.index _ (1 : Fin 3) * 4 + 4; rw [e1]; omega
  | ⟨2, _⟩ => show win0_3.index _ (2 : Fin 3) * 256 ≤ (i 2).val ∧ (i 2).val < win0_3.index _ (2 : Fin 3) * 256 + 256; rw [e2]; show (i 2).val / 256 * 256 ≤ (i 2).val ∧ (i 2).val < (i 2).val / 256 * 256 + 256; omega

/-- THE ARRAY after the region: the label-major logits of the argument arrays. -/
theorem region_array (c : Dev nD) :
    (dats m 0 c).arrAt 3 cfg0.N
      = logitsByLabel (m ((c : Thread nD τ).loc main_arg0)) (m ((c : Thread nD τ).loc main_arg1)) (m ((c : Thread nD τ).loc main_arg2)) :=
  (dats m 0 c).arrAt_eq_of_cover 3 _ (fun t _ => flushed_eq m c t) covered

end Cert.Linear.Region

end
-- ==== Proof.KernelLogits.lean ====
/-
  The kernel's run ends with the logits in its result.

  After the region the program moves the label axis of the region's [50, 4, 8192] array from the front to the back. The
  region leaves the label-major logits there, so the result, [4, 8192, 50], holds at (b, t, l) what the label-major
  arrangement holds at (l, b, t): the logits.
-/
import proofs.«172611_g46248207843626_cont_8to1_c_545_16_alg».proof.Proof.RegionLogits

noncomputable section

namespace Cert.Linear.Kernel

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- Moving the label axis of the label-major logits from the front to the back gives the logits. -/
theorem labels_last (a0 : Feat) (a1 : Wts) (a2 : Bias) :
    transpose S4x8192x50 [1, 2, 0] (logitsByLabel a0 a1 a2) transposes_S50x4x8192_S4x8192x50_1_2_0 = logits a0 a1 a2 := by
  funext i
  refine (transpose_apply [1, 2, 0] (logitsByLabel a0 a1 a2) transposes_S50x4x8192_S4x8192x50_1_2_0 i (ix3 (i 2) (i 0) (i 1))
    (fun b => ?_)).trans (logitsByLabel_swap a0 a1 a2 i)
  match b with
  | ⟨0, _⟩ => rfl
  | ⟨1, _⟩ => rfl
  | ⟨2, _⟩ => rfl

/-- The program's result after the host's transpose: the logits of the argument arrays. -/
theorem result_after_tail (c : Dev nD) :
    Pipeline.afterTail₀ cfgs (dats m) 0 (V0 m) [hostOps1] c main_v2
      = logits (m ((c : Thread nD τ).loc main_arg0)) (m ((c : Thread nD τ).loc main_arg1)) (m ((c : Thread nD τ).loc main_arg2)) := by
  unfold Pipeline.afterTail₀
  show StableHlo.after hostOps1 _ (Proc.devRef .tc main_v2) = _
  after_results
  have region : Pipeline.withArrays (cfgs 0).spec c (V0 m c) (fun w => (dats m 0 c).arrAt w (cfgs 0).N) (Proc.devRef .tc main_v1)
      = logitsByLabel (m ((c : Thread nD τ).loc main_arg0)) (m ((c : Thread nD τ).loc main_arg1)) (m ((c : Thread nD τ).loc main_arg2)) :=
    (Pipeline.withArrays_arr spec0 launch0.win.arr_inj c _ _ 3).trans (Region.region_array m c)
  exact (congrArg (fun v => transpose S4x8192x50 [1, 2, 0] v transposes_S50x4x8192_S4x8192x50_1_2_0) region).trans
    (labels_last _ _ _)

/-- THE KERNEL'S RUN, read: every weakly fair execution terminates with the result at the logits of the argument arrays
    and the argument arrays unchanged. -/
theorem run : θ_run defs (onTc (τ := τ) (main (F := Ideal))) ⟨m, fun _ => 0, ρ⟩ fun r => ∀ c : Dev nD,
      r.2.mem ((c : Thread nD τ).loc main_v2)
        = logits (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v2 (Pipeline.mem_restRefs_of main_v2 (by decide) (by decide))).trans (result_after_tail m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.Linear.Kernel

end
-- ==== Proof.lean ====
/-
  A linear layer's logits, computed two ways, are the same extended reals.

  The arguments are features x : [4, 8192, 2048], weights W : [50, 2048] and a bias : [50]; the result is [4, 8192, 50],

      logits (b, t, l) = (∑ k : Fin 2048, W (l, k) · x (b, t, k)) + bias l          (Proof/Logits.lean).

  The kernel walks the 8192 positions in 32 steps of 256. At each step it multiplies the weights by the transpose of the
  step's flattened features, into a zero accumulator, adds the bias as a column, and writes a [50, 4, 256] block of a
  label-major array [50, 4, 8192] (Proof/BodyLogits.lean: one entry of the block; Proof/RegionLogits.lean: the blocks
  tile the array, which therefore ends at the label-major logits); after the steps the label axis is moved to the back
  (Proof/KernelLogits.lean). The reference flattens the positions, multiplies the features by the transposed weights, adds
  the bias along the rows and unflattens (Proof/RefLogits.lean). Index by index both are the sum above: the kernel's
  products have the weight first and the reference's the feature first, and the product of the extended reals is
  commutative; a finite sum does not depend on how it is tiled. No other law is used, so the finiteness of the inputs is
  never opened.

  The three frames are the generated frame proofs of the two kernel programs and the reference's generated run with its
  result dropped; the idealization rewrote no operation, so `preserves` has nothing to state.
-/
import proofs.«172611_g46248207843626_cont_8to1_c_545_16_alg».proof.Defs
import proofs.«172611_g46248207843626_cont_8to1_c_545_16_alg».proof.Proof.Gen.Kernel
import proofs.«172611_g46248207843626_cont_8to1_c_545_16_alg».proof.Proof.Gen.Kernel.Skeleton
import proofs.«172611_g46248207843626_cont_8to1_c_545_16_alg».proof.Proof.Gen.Kernel.Launch
import proofs.«172611_g46248207843626_cont_8to1_c_545_16_alg».proof.Proof.Gen.Kernel.Points
import proofs.«172611_g46248207843626_cont_8to1_c_545_16_alg».proof.Proof.Gen.Kernel.Frame
import proofs.«172611_g46248207843626_cont_8to1_c_545_16_alg».proof.Proof.Gen.KernelIdeal
import proofs.«172611_g46248207843626_cont_8to1_c_545_16_alg».proof.Proof.Gen.KernelIdeal.Skeleton
import proofs.«172611_g46248207843626_cont_8to1_c_545_16_alg».proof.Proof.Gen.KernelIdeal.Launch
import proofs.«172611_g46248207843626_cont_8to1_c_545_16_alg».proof.Proof.Gen.KernelIdeal.Points
import proofs.«172611_g46248207843626_cont_8to1_c_545_16_alg».proof.Proof.Gen.KernelIdeal.Frame
import proofs.«172611_g46248207843626_cont_8to1_c_545_16_alg».proof.Proof.Gen.ReferenceIdeal
import proofs.«172611_g46248207843626_cont_8to1_c_545_16_alg».proof.Proof.Gen.Pre_finite_inputs
import proofs.«172611_g46248207843626_cont_8to1_c_545_16_alg».proof.Proof.Gen.ReferenceIdeal.Run
import proofs.«172611_g46248207843626_cont_8to1_c_545_16_alg».proof.Proof.Gen.ReferenceIdeal.Read
import proofs.«172611_g46248207843626_cont_8to1_c_545_16_alg».proof.Proof.RefLogits
import proofs.«172611_g46248207843626_cont_8to1_c_545_16_alg».proof.Proof.KernelLogits
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- And the reference: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the logits of those arguments in their results. -/
theorem algebraic : Cert.algebraic_KernelIdeal_ReferenceIdeal := by
  intro m ρ m' ρ' _ hagree
  refine ⟨fun c => Cert.Linear.logits
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.Linear.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.Linear.Reference.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
